-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x32 : Shape := ⟨2, ![4096, 32]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4096x4096 .f32) (main_arg1 : IVec S4096x4096 32) (main_arg2 : FVec F S4096x32 .f32) (main_arg3 : FVec F S4096x32 .f32) (main_arg4 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4096x4096 : Shape := ⟨2, ![4096, 4096]⟩
abbrev S4096x32 : Shape := ⟨2, ![4096, 32]⟩
abbrev S4096 : Shape := ⟨1, ![4096]⟩
abbrev S1x4096 : Shape := ⟨2, ![1, 4096]⟩
abbrev S256x4096 : Shape := ⟨2, ![256, 4096]⟩
abbrev S256x32 : Shape := ⟨2, ![256, 32]⟩
abbrev S1x256 : Shape := ⟨2, ![1, 256]⟩
abbrev S256x256 : Shape := ⟨2, ![256, 256]⟩
abbrev S256x32x128 : Shape := ⟨3, ![256, 32, 128]⟩
abbrev S256x32x1 : Shape := ⟨3, ![256, 32, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096x4096, .i32⟩
  | .hbm, ⟨2, _⟩ => ⟨S4096x32, .f32⟩
  | .hbm, ⟨3, _⟩ => ⟨S4096x32, .f32⟩
  | .hbm, ⟨4, _⟩ => ⟨S4096, .f32⟩
  | .hbm, ⟨5, _⟩ => ⟨S1x4096, .f32⟩
  | .hbm, ⟨6, _⟩ => ⟨S4096x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .i32⟩
  | .local _ .vmem, ⟨3, _⟩ => ⟨S256x4096, .i32⟩
  | .local _ .vmem, ⟨4, _⟩ => ⟨S256x32, .f32⟩
  | .local _ .vmem, ⟨5, _⟩ => ⟨S256x32, .f32⟩
  | .local _ .vmem, ⟨6, _⟩ => ⟨S256x32, .f32⟩
  | .local _ .vmem, ⟨7, _⟩ => ⟨S256x32, .f32⟩
  | .local _ .vmem, ⟨8, _⟩ => ⟨S1x256, .f32⟩
  | .local _ .vmem, ⟨9, _⟩ => ⟨S1x256, .f32⟩
  | .local _ .vmem, ⟨10, _⟩ => ⟨S256x256, .f32⟩
  | .local _ .vmem, ⟨11, _⟩ => ⟨S256x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x32x128 : S256x4096.ShapeCasts S256x32x128
  inb_S256x32_S256x32_0_0 : ∀ a, (![0, 0] : Fin 2 → Nat) a + S256x32.size a ≤ S256x32.size a
  h_S256x32 : 0 < S256x32.numel
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  dot_S256x4096_S256x4096_S256x256_1_1_0_0_n_n_wf : DotDims.WF S256x4096 S256x4096 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .i32 = 32 ∨ (Rect.block (s := S4096x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S4096x32.size a
  hwx0_2 : ∀ i : grid0.Coords, EltTy.bits .f32 = 32 ∨ (Rect.block (s := S4096x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S4096x32.size a
  hwx0_3 : ∀ i : grid0.Coords, EltTy.bits .f32 = 32 ∨ (Rect.block (s := S4096x32) S256x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x4096.size a
  hwx0_4 : ∀ i : grid0.Coords, EltTy.bits .f32 = 32 ∨ (Rect.block (s := S1x4096) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S4096x4096.size a
  hwx0_5 : ∀ i : grid0.Coords, EltTy.bits .f32 = 32 ∨ (Rect.block (s := S4096x4096) S256x256.size (cc0_transform_5 i) (hinb0_5 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x32 : Shape := ⟨2, ![4096, 32]⟩
abbrev S4096 : Shape := ⟨1, ![4096]⟩
abbrev S4096x32x128 : Shape := ⟨3, ![4096, 32, 128]⟩
abbrev S4096x32x1 : Shape := ⟨3, ![4096, 32, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .i32⟩
  | .hbm, ⟨2, _⟩ => ⟨S4096x32, .f32⟩
  | .hbm, ⟨3, _⟩ => ⟨S4096x32, .f32⟩
  | .hbm, ⟨4, _⟩ => ⟨S4096, .f32⟩
  | .hbm, ⟨5, _⟩ => ⟨S4096x32x128, .i32⟩
  | .hbm, ⟨6, _⟩ => ⟨S4096x32x128, .f32⟩
  | .hbm, ⟨7, _⟩ => ⟨S4096x32x1, .f32⟩
  | .hbm, ⟨8, _⟩ => ⟨S4096x32x128, .f32⟩
  | .hbm, ⟨9, _⟩ => ⟨S4096x32x128, .f32⟩
  | .hbm, ⟨10, _⟩ => ⟨S4096x32x1, .f32⟩
  | .hbm, ⟨11, _⟩ => ⟨S4096x32x128, .f32⟩
  | .hbm, ⟨12, _⟩ => ⟨S4096x32x128, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  shapeCasts_S4096x4096_S4096x32x128 : S4096x4096.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.LibGroupLayout.lean ====
/-
  Group-wise layouts read at coordinates. A matrix whose row of length `n = g · l` is cut into `g` groups of `l`
  consecutive entries is the same data as a rank-3 array `[a, g, l]`: column `k` of row `r` is entry `(r, u, v)`
  exactly when `k = u · l + v` (row-major order keeps the position). A per-group quantity `[a, g]` is spread over
  its group by adding a last axis of extent one and repeating along it: entry `(r, u, v)` of the result is the
  group's value `(r, u)`, whatever `v`. All four readings hold for every element type and every extents.
-/
import Idealize.ShloMosaic.Lib.Pipeline.Value
import Idealize.ShloMosaic.Lib.ValueIdx

namespace Idealize.ShloMosaic.GroupLayout

open Idealize.ShloMosaic Idealize.ShloMosaic.ValueIdx

variable {α : Type}

/-- A matrix `[a, n]` viewed as `[a, g, l]`: entry `(r, u, v)` is the matrix at `(r, k)` for the column
    `k = u · l + v`. -/
theorem shapeCast_split_apply {a g l n : ℕ} (x : (⟨2, ![a, n]⟩ : Shape).Idx → α)
    (h : (⟨2, ![a, n]⟩ : Shape).ShapeCasts ⟨3, ![a, g, l]⟩) (hn : n = g * l)
    (r : Fin a) (u : Fin g) (v : Fin l) (k : Fin n) (hk : k.val = u.val * l + v.val) :
    shapeCast ⟨3, ![a, g, l]⟩ x h (ix3 r u v) = x (ix2 r k) := by
  refine shapeCast_apply x h (ix3 r u v) (ix2 r k) ?_
  rw [Shape.rowMajor_val_two, Shape.rowMajor_val_three]
  show r.val * n + k.val = (r.val * g + u.val) * l + v.val
  rw [hk, hn]; ring

/-- The grouped array `[a, g, l]` viewed as the matrix `[a, n]`: entry `(r, k)` is the array at `(r, u, v)` for the
    group `u` and the place `v` in it with `k = u · l + v` (so `u = k / l`, `v = k % l`). -/
theorem shapeCast_merge_apply {a g l n : ℕ} (y : (⟨3, ![a, g, l]⟩ : Shape).Idx → α)
    (h : (⟨3, ![a, g, l]⟩ : Shape).ShapeCasts ⟨2, ![a, n]⟩) (hn : n = g * l)
    (r : Fin a) (k : Fin n) (u : Fin g) (v : Fin l) (hk : k.val = u.val * l + v.val) :
    shapeCast ⟨2, ![a, n]⟩ y h (ix2 r k) = y (ix3 r u v) := by
  refine shapeCast_apply y h (ix2 r k) (ix3 r u v) ?_
  rw [Shape.rowMajor_val_two, Shape.rowMajor_val_three]
  show (r.val * g + u.val) * l + v.val = r.val * n + k.val
  rw [hk, hn]; ring

/-- A per-group matrix `[a, g]` given a last axis of extent one: entry `(r, u, 0)` is the matrix at `(r, u)`. -/
theorem shapeCast_unitLast_apply {a g : ℕ} (x : (⟨2, ![a, g]⟩ : Shape).Idx → α)
    (h : (⟨2, ![a, g]⟩ : Shape).ShapeCasts ⟨3, ![a, g, 1]⟩) (r : Fin a) (u : Fin g) (z : Fin 1) :
    shapeCast ⟨3, ![a, g, 1]⟩ x h (ix3 r u z) = x (ix2 r u) := by
  refine shapeCast_apply x h (ix3 r u z) (ix2 r u) ?_
  rw [Shape.rowMajor_val_two, Shape.rowMajor_val_three]
  show r.val * g + u.val = (r.val * g + u.val) * 1 + z.val
  have hz : z.val = 0 := by have := z.isLt; omega
  rw [hz, Nat.mul_one, Nat.add_zero]

/-- `[a, g, 1]` repeated along its last axis to `[a, g, l]`: entry `(r, u, v)` is the operand's `(r, u, 0)`. -/
theorem broadcastTo_lastUnit_apply {a g l : ℕ} (y : (⟨3, ![a, g, 1]⟩ : Shape).Idx → α)
    (h : (⟨3, ![a, g, 1]⟩ : Shape).Broadcasts ⟨3, ![a, g, l]⟩) (r : Fin a) (u : Fin g) (v : Fin l) :
    broadcastTo ⟨3, ![a, g, l]⟩ y h (ix3 r u v) = y (ix3 r u (0 : Fin 1)) := by
  refine broadcastTo_apply y h (ix3 r u v) (ix3 r u (0 : Fin 1)) fun ax => ?_
  match ax with
  | ⟨0, _⟩ =>
    show r.val = if a = 1 then 0 else r.val
    split
    · have := r.isLt; omega
    · rfl
  | ⟨1, _⟩ =>
    show u.val = if g = 1 then 0 else u.val
    split
    · have := u.isLt; omega
    · rfl
  | ⟨2, _⟩ =>
    show (0 : ℕ) = if (1 : ℕ) = 1 then 0 else v.val
    rw [if_pos rfl]

/-- A per-group matrix spread over its groups: `[a, g]` → `[a, g, 1]` → `[a, g, l]` at `(r, u, v)` is the matrix at
    `(r, u)`. -/
theorem spread_apply {a g l : ℕ} (x : (⟨2, ![a, g]⟩ : Shape).Idx → α)
    (h : (⟨2, ![a, g]⟩ : Shape).ShapeCasts ⟨3, ![a, g, 1]⟩)
    (h' : (⟨3, ![a, g, 1]⟩ : Shape).Broadcasts ⟨3, ![a, g, l]⟩) (r : Fin a) (u : Fin g) (v : Fin l) :
    broadcastTo ⟨3, ![a, g, l]⟩ (shapeCast ⟨3, ![a, g, 1]⟩ x h) h' (ix3 r u v) = x (ix2 r u) :=
  (broadcastTo_lastUnit_apply _ h' r u v).trans (shapeCast_unitLast_apply x h r u 0)

end Idealize.ShloMosaic.GroupLayout
-- ==== Proof.Dequant.lean ====
/-
  The function both programs compute: a linear layer whose weight matrix is stored quantized, group by group.

  Output feature `n` keeps, for each of the 4096 input features `k`, a stored integer `q n k`, and for each GROUP of 128
  consecutive input features (`k / 128`, 32 groups per row) one zero point and one scale. The weight is
  `w n k = (q n k − zero n (k / 128)) · scale n (k / 128)`, the integer read signed as a real number, and the layer is
  `y p n = (Σ_k x p k · w n k) + bias n` — on the extended reals, where the sum, the product and the difference are the
  exact ones and no order of summation matters.
-/
import Idealize.ShloMosaic.PureOps.Ideal
import Idealize.ShloMosaic.Lib.ValueIdx

noncomputable section

open scoped BigOperators

namespace Cert.Dequant

open Idealize.ShloMosaic Idealize.ShloMosaic.ValueIdx

/-- The group of input feature `k`: 128 consecutive features share one scale and one zero point. -/
def grp (k : Fin 4096) : Fin 32 := ⟨k.val / 128, by have := k.isLt; omega⟩

/-- The place of input feature `k` inside its group. -/
def lane (k : Fin 4096) : Fin 128 := ⟨k.val % 128, Nat.mod_lt _ (by decide)⟩

/-- A feature is its group's first feature plus its place in the group. -/
theorem col_eq (k : Fin 4096) : k.val = (grp k).val * 128 + (lane k).val := by
  show k.val = k.val / 128 * 128 + k.val % 128
  omega

/-- A stored integer read as an extended real: the word's signed value. -/
def word (b : BitVec 32) : EReal := ((b.toInt : ℝ) : EReal)

/-- At the ideal values the conversion of an integer word to a float is that reading. -/
theorem sitofp_word (b : BitVec 32) : FloatOps.sitofp (F := Ideal) .f32 b = word b := rfl

/-- The dequantized weight of output feature `n` at input feature `k`. -/
def weight (q : (⟨2, ![4096, 4096]⟩ : Shape).Idx → BitVec 32) (scales zeros : (⟨2, ![4096, 32]⟩ : Shape).Idx → EReal)
    (n k : Fin 4096) : EReal :=
  (word (q (ix2 n k)) - zeros (ix2 n (grp k))) * scales (ix2 n (grp k))

/-- Row `p` of the input against output feature `n`, plus that feature's bias. -/
def out (x : (⟨2, ![4096, 4096]⟩ : Shape).Idx → EReal) (q : (⟨2, ![4096, 4096]⟩ : Shape).Idx → BitVec 32)
    (scales zeros : (⟨2, ![4096, 32]⟩ : Shape).Idx → EReal) (bias : (⟨1, ![4096]⟩ : Shape).Idx → EReal)
    (p n : Fin 4096) : EReal :=
  (∑ k : Fin 4096, x (ix2 p k) * weight q scales zeros n k) + bias (ix1 n)

/-- The layer's whole result, index by index. -/
def linear (x : (⟨2, ![4096, 4096]⟩ : Shape).Idx → EReal) (q : (⟨2, ![4096, 4096]⟩ : Shape).Idx → BitVec 32)
    (scales zeros : (⟨2, ![4096, 32]⟩ : Shape).Idx → EReal) (bias : (⟨1, ![4096]⟩ : Shape).Idx → EReal) :
    (⟨2, ![4096, 4096]⟩ : Shape).Idx → EReal :=
  fun i => out x q scales zeros bias (i 0) (i 1)

/-- The result at coordinates. -/
theorem linear_ix2 (x : (⟨2, ![4096, 4096]⟩ : Shape).Idx → EReal) (q : (⟨2, ![4096, 4096]⟩ : Shape).Idx → BitVec 32)
    (scales zeros : (⟨2, ![4096, 32]⟩ : Shape).Idx → EReal) (bias : (⟨1, ![4096]⟩ : Shape).Idx → EReal) (p n : Fin 4096) :
    linear x q scales zeros bias (ix2 p n) = out x q scales zeros bias p n := rfl

end Cert.Dequant

end
-- ==== Proof.KernelTile.lean ====
/-
  One grid point's output tile, read at coordinates.

  At a grid point the kernel holds 256 rows of the input (`[256, 4096]`), the stored integers, scales and zero points
  of 256 output features (`[256, 4096]`, `[256, 32]`, `[256, 32]`) and those features' biases (`[1, 256]`). It
  regroups the integers as `[256, 32, 128]`, subtracts each group's zero point and multiplies by its scale (both
  repeated over the group's 128 places), lays the result back flat, and contracts the input rows against it over
  the 4096 input features; the bias row is added to every row. Read at `(p, q)` that is
  `Σ_j x (p, j) · ((int (q, j) − zero (q, j / 128)) · scale (q, j / 128)) + bias (0, q)`:
  the regrouping and the flattening keep row-major positions, so they cancel, and at the ideal values the change of
  float format before the product is the identity and the product into a zero accumulator is the plain sum.
-/
import proofs.«172499_j6210522710593_1_alg».proof.Proof.Gen.KernelIdeal.Skeleton
import proofs.«172499_j6210522710593_1_alg».proof.Proof.LibGroupLayout
import proofs.«172499_j6210522710593_1_alg».proof.Proof.Dequant
import Idealize.ShloMosaic.PureOps.Ideal.Laws
import Idealize.ShloMosaic.Lib.ValueLayout

noncomputable section

open scoped BigOperators

namespace Cert.KernelIdeal.Tile

open Cert.KernelIdeal Cert.KernelIdeal.Gen Idealize.ShloMosaic Idealize.ShloMosaic.ValueIdx
open Idealize.ShloMosaic.GroupLayout Cert.Dequant

/-- The dequantized weight of the tile's output feature `n` at input feature `k`, from the tile's own blocks. -/
def wtile (q : Vec Ideal S256x4096 .i32) (scales zeros : Vec Ideal S256x32 .f32) (n : Fin 256) (k : Fin 4096) : EReal :=
  (word (q (ix2 n k)) - zeros (ix2 n (grp k))) * scales (ix2 n (grp k))

/-- Regroup, subtract the spread zero points, multiply by the spread scales, flatten: at `(n, k)` the dequantized
    weight. The regrouped entry `(n, k / 128, k % 128)` is the flat entry `(n, k)`. -/
theorem wtile_apply (q : Vec Ideal S256x4096 .i32) (scales zeros : Vec Ideal S256x32 .f32)
    (h1 : S256x4096.ShapeCasts S256x32x128) (h2 : S256x32.ShapeCasts S256x32x1)
    (h3 : S256x32x1.Broadcasts S256x32x128) (h4 : S256x32x128.ShapeCasts S256x4096) (n : Fin 256) (k : Fin 4096) :
    (shapeCast S256x4096 (mulf (subf (shapeCast S256x32x128 (sitofp (F := Ideal) .f32 q) h1)
        (broadcastTo S256x32x128 (shapeCast S256x32x1 zeros h2) h3))
        (broadcastTo S256x32x128 (shapeCast S256x32x1 scales h2) h3)) h4 : FVec Ideal S256x4096 .f32) (ix2 n k)
      = wtile q scales zeros n k := by
  rw [shapeCast_merge_apply _ h4 rfl n k (grp k) (lane k) (col_eq k), mulf_apply, subf_apply, spread_apply, spread_apply,
    shapeCast_split_apply _ h1 rfl n (grp k) (lane k) k (col_eq k)]
  rfl

/-- The product's left operand index at output `i`: the output's row on axis 0, -/
theorem lhs_row (i : S256x256.Idx) (c : dot_S256x4096_S256x4096_S256x256_1_1_0_0_n_n.contr.Idx) :
    (dot_S256x4096_S256x4096_S256x256_1_1_0_0_n_n.lhsIdx i c 0).val = (i 0).val := by
  unfold DotDims.lhsIdx
  rw [dif_neg (show ¬(0 : Fin S256x4096.rank) ∈ dot_S256x4096_S256x4096_S256x256_1_1_0_0_n_n.lhsBatch by decide),
    dif_pos (show (0 : Fin S256x4096.rank) ∈ dot_S256x4096_S256x4096_S256x256_1_1_0_0_n_n.lhsNonContracting by decide)]
  rfl
/-- the contracted feature on axis 1. -/
theorem lhs_col (i : S256x256.Idx) (c : dot_S256x4096_S256x4096_S256x256_1_1_0_0_n_n.contr.Idx) :
    (dot_S256x4096_S256x4096_S256x256_1_1_0_0_n_n.lhsIdx i c 1).val = (c ⟨0, by decide⟩).val :=
  dot_S256x4096_S256x4096_S256x256_1_1_0_0_n_n.lhsIdx_val_of_single rfl i c
/-- The right operand index: the output's COLUMN on axis 0 (the weight is contracted along its own rows), -/
theorem rhs_row (i : S256x256.Idx) (c : dot_S256x4096_S256x4096_S256x256_1_1_0_0_n_n.contr.Idx) :
    (dot_S256x4096_S256x4096_S256x256_1_1_0_0_n_n.rhsIdx i c 0).val = (i 1).val := by
  unfold DotDims.rhsIdx
  rw [dif_neg (show ¬(0 : Fin S256x4096.rank) ∈ dot_S256x4096_S256x4096_S256x256_1_1_0_0_n_n.rhsBatch by decide),
    dif_pos (show (0 : Fin S256x4096.rank) ∈ dot_S256x4096_S256x4096_S256x256_1_1_0_0_n_n.rhsNonContracting by decide)]
  rfl
/-- the contracted feature on axis 1. -/
theorem rhs_col (i : S256x256.Idx) (c : dot_S256x4096_S256x4096_S256x256_1_1_0_0_n_n.contr.Idx) :
    (dot_S256x4096_S256x4096_S256x256_1_1_0_0_n_n.rhsIdx i c 1).val = (c ⟨0, by decide⟩).val :=
  dot_S256x4096_S256x4096_S256x256_1_1_0_0_n_n.rhsIdx_val_of_single rfl i c

/-- The matrix product into a zero accumulator, both operands contracted along their second axis: at `(p, q)` the sum
    over the 4096 features `j` of `lhs (p, j) · rhs (q, j)`. -/
theorem product_apply (lhs rhs : FVec Ideal S256x4096 .bf16) (p q : Fin 256) :
    matmul dot_S256x4096_S256x4096_S256x256_1_1_0_0_n_n none lhs rhs (constant S256x256 .f32 0x00000000#32) (ix2 p q)
      = ∑ j : Fin 4096, lhs (ix2 p j) * rhs (ix2 q j) := by
  simp only [matmul]
  rw [Ideal.matmul_constant_zero_apply,
    ← Equiv.sum_comp (contrEquiv1 dot_S256x4096_S256x4096_S256x256_1_1_0_0_n_n 4096 rfl rfl).symm]
  refine Finset.sum_congr rfl fun j _ => ?_
  have hj := contrEquiv1_symm_val dot_S256x4096_S256x4096_S256x256_1_1_0_0_n_n 4096 rfl rfl j
  have el : dot_S256x4096_S256x4096_S256x256_1_1_0_0_n_n.lhsIdx (ix2 p q)
      ((contrEquiv1 dot_S256x4096_S256x4096_S256x256_1_1_0_0_n_n 4096 rfl rfl).symm j) = ix2 p j :=
    funext fun a => Fin.ext (by
      match a with
      | ⟨0, _⟩ => exact lhs_row _ _
      | ⟨1, _⟩ => exact (lhs_col _ _).trans hj)
  have er : dot_S256x4096_S256x4096_S256x256_1_1_0_0_n_n.rhsIdx (ix2 p q)
      ((contrEquiv1 dot_S256x4096_S256x4096_S256x256_1_1_0_0_n_n 4096 rfl rfl).symm j) = ix2 q j :=
    funext fun a => Fin.ext (by
      match a with
      | ⟨0, _⟩ => exact rhs_row _ _
      | ⟨1, _⟩ => exact (rhs_col _ _).trans hj)
  rw [el, er]

/-- THE TILE: the body's stored value at `(p, q)`, from the values it loaded. -/
theorem tile_apply (q : Vec Ideal S256x4096 .i32) (scales zeros : Vec Ideal S256x32 .f32) (x : Vec Ideal S256x4096 .f32)
    (bias : Vec Ideal S1x256 .f32) (p n : Fin 256) :
    k0_pay1 (F := Ideal) q scales zeros x bias (ix2 p n)
      = (∑ j : Fin 4096, x (ix2 p j) * wtile q scales zeros n j) + bias (ix2 (0 : Fin 1) n) := by
  unfold k0_pay1
  refine (addf_apply _ _ _).trans ?_
  refine congrArg₂ (· + ·) ?_ ?_
  · refine (product_apply _ _ p n).trans (Finset.sum_congr rfl fun j _ => ?_)
    exact congrArg (x (ix2 p j) * ·) (wtile_apply q scales zeros _ _ _ _ n j)
  · refine (broadcastTo_1b_ab_apply _ _ p n).trans ?_
    exact congrFun (shapeCast_self bias _) (ix2 (0 : Fin 1) n)

end Cert.KernelIdeal.Tile

end
-- ==== Proof.KernelArray.lean ====
/-
  From tiles to the whole array: the kernel's result is the quantized linear layer of its arguments.

  The grid has 16 × 16 points; point `(a, b)` works on rows `256·a …` of the input, output features `256·b …` of the
  stored integers, scales, zero points and bias row, and writes back the `256 × 256` block `(a, b)` of the result.
  An element `(r, s)` of that block is therefore the layer's value at `(256·a + r, 256·b + s)`: the tile's formula
  reads row `r` of the input block, which is row `256·a + r` of the input, and feature `s` of the weight blocks, which is
  feature `256·b + s`. The blocks tile the result (element `(P, N)` lies in block `(P / 256, N / 256)`), so the array
  the run leaves is the layer, whole. The bias reaches the region as a `[1, 4096]` row, the host's re-laying of the
  bias vector, whose entry `(0, N)` is the vector's entry `N`.
-/
import proofs.«172499_j6210522710593_1_alg».proof.Proof.Gen.KernelIdeal.Value
import proofs.«172499_j6210522710593_1_alg».proof.Proof.KernelTile
import Idealize.ShloMosaic.Lib.StableHlo.Run
import Idealize.ShloMosaic.Lib.ValueLayout

noncomputable section

open scoped BigOperators

namespace Cert.KernelIdeal.Whole

open Cert.KernelIdeal Cert.KernelIdeal.Gen Cert.KernelIdeal.Tile Idealize.ShloMosaic Idealize.ShloMosaic.TcCoe Idealize.SL.Sem
open Idealize.ShloMosaic.ValueIdx Cert.Dequant
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Which block of its array each window is on at a point, relative to the result's block `(a, b)`: the input is on
    block row `a`, the three weight arrays and the bias row on block `b`; the long axes are whole. Decided over the
    grid's 256 points. -/
theorem block_indices : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = win0_5.index t (1 : Fin 2) ∧ win0_3.index t (1 : Fin 2) = 0
    ∧ win0_4.index t (0 : Fin 2) = 0 ∧ win0_4.index t (1 : Fin 2) = win0_5.index t (1 : Fin 2)
    ∧ win0_5.index t (0 : Fin 2) ≤ 15 ∧ win0_5.index t (1 : Fin 2) ≤ 15 :=
  (by decide +kernel : ∀ t : Fin grid0.N, _)

/-- The grid runs row by row: point `16·a + b` is on block `(a, b)` of the result. Decided over the 256 blocks. -/
theorem block_point : ∀ (a b : Fin 16),
    win0_5.index (⟨a.val * 16 + b.val, by have := a.isLt; have := b.isLt; rw [N_0]; omega⟩ : Fin grid0.N) = ![a.val, b.val] := by
  decide +kernel

/-- So every block of the result is some point's. -/
theorem block_onto (a b : Fin 16) : ∃ t : Fin cfg0.N, win0_5.index t = ![a.val, b.val] :=
  ⟨_, block_point a b⟩

/-- The bias row the region finds: the host's re-laying of the bias vector as `[1, 4096]`. -/
theorem bias_row (c : Dev nD) :
    (V m c main_v0 : S1x4096.Idx → EReal)
      = shapeCast S1x4096 (m ((c : Thread nD τ).loc main_arg4)) shapeCasts_S4096_S1x4096 := by
  dsimp only [Gen.V, Gen.hostOps0]; after_results; rfl

/-- Its entry `(0, N)` is the bias of feature `N`. -/
theorem bias_row_apply (c : Dev nD) (u : Fin 1) (N : Fin 4096) :
    (V m c main_v0 : S1x4096.Idx → EReal) (ix2 u N) = m ((c : Thread nD τ).loc main_arg4) (ix1 N) := by
  rw [bias_row]
  exact shapeCast_a_1a_apply _ _ u N

/-- ONE ELEMENT of a tile is the layer's value at the element's place in the array, whenever the tile's blocks are
    the arrays' blocks there: row `r` of the input block is row `P` of the input, feature `s` of the weight blocks is
    feature `N`. Stated over plain blocks and arrays. -/
theorem tile_is_layer (X : S4096x4096.Idx → EReal) (Q : S4096x4096.Idx → BitVec 32) (Sc Z : S4096x32.Idx → EReal)
    (B : S4096.Idx → EReal)
    (x : Vec Ideal S256x4096 .f32) (q : Vec Ideal S256x4096 .i32) (sc z : Vec Ideal S256x32 .f32) (b : Vec Ideal S1x256 .f32)
    (j : S256x256.Idx) (i : S4096x4096.Idx) (r s : Fin 256) (P N : Fin 4096) (hj : j = ix2 r s) (hi : i = ix2 P N)
    (hx : ∀ k : Fin 4096, x (ix2 r k) = X (ix2 P k))
    (hq : ∀ k : Fin 4096, q (ix2 s k) = Q (ix2 N k))
    (hsc : ∀ g : Fin 32, sc (ix2 s g) = Sc (ix2 N g))
    (hz : ∀ g : Fin 32, z (ix2 s g) = Z (ix2 N g))
    (hb : b (ix2 (0 : Fin 1) s) = B (ix1 N)) :
    k0_pay1 (F := Ideal) q sc z x b j = linear X Q Sc Z B i := by
  subst hj hi
  rw [tile_apply, linear_ix2]
  unfold out wtile weight
  rw [hb]
  refine congrArg (· + B (ix1 N)) (Finset.sum_congr rfl fun k _ => ?_)
  rw [hx, hq, hsc, hz]

/-- WHAT POINT `t` WRITES BACK is block `t` of the layer of the arrays as the region finds them. -/
theorem flushed_eq (c : Dev nD) (t : Fin cfg0.N) :
    (dats m 0 c).flushed 5 t = ((cfg0.win 5).blk t).view.read (Elt Ideal)
      (linear (V m c main_arg0) (V m c main_arg1) (V m c main_arg2) (V m c main_arg3) (m ((c : Thread nD τ).loc main_arg4))) := by
  show (cfg0.win 5).cut (grid0.coords t) ((dats m 0 c).after 5 t) = _
  rw [after0_5]
  unfold out0_5
  rw [View.canon_unit_zero zero_offsets]
  simp only [View.ld_unit_zero (S := S256x4096) zero_offsets, View.ld_unit_zero (S := S256x32) zero_offsets,
    View.ld_unit_zero (S := S1x256) zero_offsets]
  obtain ⟨e0, e1, e2, e3, e4, e5, e6, e7, e8, e9, e10, e11⟩ := block_indices t
  funext j
  have hj0 : (j 0).val < 256 := (j 0).isLt
  have hj1 : (j 1).val < 256 := (j 1).isLt
  show k0_pay1 (F := Ideal) (iblk m c 1 t) (iblk m c 2 t) (iblk m c 3 t) (iblk m c 0 t) (iblk m c 4 t) j
    = linear (V m c main_arg0) (V m c main_arg1) (V m c main_arg2) (V m c main_arg3) (m ((c : Thread nD τ).loc main_arg4))
        (((cfg0.win 5).blk t).view.emb j)
  refine tile_is_layer (V m c main_arg0) (V m c main_arg1) (V m c main_arg2) (V m c main_arg3) (m ((c : Thread nD τ).loc main_arg4))
    (iblk m c 0 t) (iblk m c 1 t) (iblk m c 2 t) (iblk m c 3 t) (iblk m c 4 t) j (((cfg0.win 5).blk t).view.emb j)
    ⟨(j 0).val, hj0⟩ ⟨(j 1).val, hj1⟩
    ⟨win0_5.index t (0 : Fin 2) * 256 + (j 0).val, by omega⟩ ⟨win0_5.index t (1 : Fin 2) * 256 + (j 1).val, by omega⟩
    ?_ ?_ ?_ ?_ ?_ ?_ ?_
  · funext a; match a with | ⟨0, _⟩ => rfl | ⟨1, _⟩ => rfl
  · funext a; apply Fin.ext
    match a with
    | ⟨0, _⟩ => show win0_5.index t (0 : Fin 2) * 256 + 1 * (j 0).val = win0_5.index t (0 : Fin 2) * 256 + (j 0).val; omega
    | ⟨1, _⟩ => show win0_5.index t (1 : Fin 2) * 256 + 1 * (j 1).val = win0_5.index t (1 : Fin 2) * 256 + (j 1).val; omega
  · intro k
    show V m c main_arg0 (((cfg0.win 0).blk t).view.emb (ix2 ⟨(j 0).val, hj0⟩ k)) = _
    refine congrArg (V m c main_arg0) (funext fun a => Fin.ext ?_)
    have hk : k.val < 4096 := k.isLt
    match a with
    | ⟨0, _⟩ => show win0_0.index t (0 : Fin 2) * 256 + 1 * (j 0).val = win0_5.index t (0 : Fin 2) * 256 + (j 0).val; omega
    | ⟨1, _⟩ => show win0_0.index t (1 : Fin 2) * 4096 + 1 * k.val = k.val; omega
  · intro k
    show V m c main_arg1 (((cfg0.win 1).blk t).view.emb (ix2 ⟨(j 1).val, hj1⟩ k)) = _
    refine congrArg (V m c main_arg1) (funext fun a => Fin.ext ?_)
    have hk : k.val < 4096 := k.isLt
    match a with
    | ⟨0, _⟩ => show win0_1.index t (0 : Fin 2) * 256 + 1 * (j 1).val = win0_5.index t (1 : Fin 2) * 256 + (j 1).val; omega
    | ⟨1, _⟩ => show win0_1.index t (1 : Fin 2) * 4096 + 1 * k.val = k.val; omega
  · intro g
    show V m c main_arg2 (((cfg0.win 2).blk t).view.emb (ix2 ⟨(j 1).val, hj1⟩ g)) = _
    refine congrArg (V m c main_arg2) (funext fun a => Fin.ext ?_)
    have hg : g.val < 32 := g.isLt
    match a with
    | ⟨0, _⟩ => show win0_2.index t (0 : Fin 2) * 256 + 1 * (j 1).val = win0_5.index t (1 : Fin 2) * 256 + (j 1).val; omega
    | ⟨1, _⟩ => show win0_2.index t (1 : Fin 2) * 32 + 1 * g.val = g.val; omega
  · intro g
    show V m c main_arg3 (((cfg0.win 3).blk t).view.emb (ix2 ⟨(j 1).val, hj1⟩ g)) = _
    refine congrArg (V m c main_arg3) (funext fun a => Fin.ext ?_)
    have hg : g.val < 32 := g.isLt
    match a with
    | ⟨0, _⟩ => show win0_3.index t (0 : Fin 2) * 256 + 1 * (j 1).val = win0_5.index t (1 : Fin 2) * 256 + (j 1).val; omega
    | ⟨1, _⟩ => show win0_3.index t (1 : Fin 2) * 32 + 1 * g.val = g.val; omega
  · show V m c main_v0 (((cfg0.win 4).blk t).view.emb (ix2 (0 : Fin 1) ⟨(j 1).val, hj1⟩)) = _
    refine Eq.trans (congrArg (V m c main_v0) (?_ : _ = ix2 (0 : Fin 1)
      (⟨win0_5.index t (1 : Fin 2) * 256 + (j 1).val, by omega⟩ : Fin 4096))) (bias_row_apply m c 0 _)
    funext a; apply Fin.ext
    match a with
    | ⟨0, _⟩ => show win0_4.index t (0 : Fin 2) * 1 + 1 * 0 = 0; omega
    | ⟨1, _⟩ => show win0_4.index t (1 : Fin 2) * 256 + 1 * (j 1).val = win0_5.index t (1 : Fin 2) * 256 + (j 1).val; omega

/-- An index of the result is in point `t`'s block iff each coordinate is in the block's range on its axis. -/
theorem mem_block (t : Fin cfg0.N) (i : S4096x4096.Idx) :
    i ∈ ((cfg0.win 5).blk t).view.set ↔ ∀ a : Fin 2, win0_5.index t a * S256x256.size a ≤ (i a).val
      ∧ (i a).val < win0_5.index t a * S256x256.size a + S256x256.size a := by
  show i ∈ ((View.whole main_v1).slice (win0_5.rect t)).set ↔ _
  rw [View.set_slice_whole, Rect.mem_set_unit]
  exact Iff.rfl

/-- The blocks tile the result: element `(P, N)` is in the block of the point on block `(P / 256, N / 256)`. -/
theorem covered (i : S4096x4096.Idx) :
    ∃ t : Fin cfg0.N, (cfg0.win 5).flush t = true ∧ i ∈ ((cfg0.win 5).blk t).view.set := by
  have hi0 : (i 0).val < 4096 := (i 0).isLt
  have hi1 : (i 1).val < 4096 := (i 1).isLt
  obtain ⟨t, ht⟩ := block_onto ⟨(i 0).val / 256, by omega⟩ ⟨(i 1).val / 256, by omega⟩
  have q0 : win0_5.index t (0 : Fin 2) = (i 0).val / 256 := congrFun ht 0
  have q1 : win0_5.index t (1 : Fin 2) = (i 1).val / 256 := congrFun ht 1
  refine ⟨t, flush0_5 t, ?_⟩
  rw [mem_block]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 256 ≤ (i 1).val ∧ (i 1).val < win0_5.index t (1 : Fin 2) * 256 + 256; omega

/-- THE RESULT ARRAY after the run: the quantized linear layer of the argument arrays. -/
theorem final (c : Dev nD) :
    (dats m 0 c).arrAt 5 cfg0.N
      = linear (m ((c : Thread nD τ).loc main_arg0)) (m ((c : Thread nD τ).loc main_arg1)) (m ((c : Thread nD τ).loc main_arg2))
          (m ((c : Thread nD τ).loc main_arg3)) (m ((c : Thread nD τ).loc main_arg4)) := by
  rw [(dats m 0 c).arrAt_eq_of_cover 5 _ (fun t _ => flushed_eq m c t) covered, V_main_arg0, V_main_arg1, V_main_arg2, V_main_arg3]

/-- The kernel's run: every weakly fair execution terminates with the result at the layer of the arguments, the
    arguments unchanged. -/
theorem run : θ_run defs (onTc (τ := τ) (main (F := Ideal))) ⟨m, fun _ => 0, ρ⟩ fun r => ∀ c : Dev nD,
      r.2.mem ((c : Thread nD τ).loc main_v1)
        = linear (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.ReferenceValue.lean ====
/-
  The reference computes the quantized linear layer (`Cert.Dequant.linear`).

  Read one operation at a time, the reference's result at `(p, n)` is the sum over `k` of `x (p, k)` times the
  re-laid weight at `(n, k)`, plus the bias row at `n`. The weight is built as a `[4096, 32, 128]` array — the stored
  integers regrouped, minus the zero points and times the scales, each repeated over its group of 128 — and laid
  back flat: regrouping and flattening undo each other, so the flat entry `(n, k)` reads the integer at `(n, k)` and
  the zero point and scale of group `k / 128`. What is left is index arithmetic: both programs' index maps are
  compared coordinate by coordinate.
-/
import proofs.«172499_j6210522710593_1_alg».proof.Proof.Gen.ReferenceIdeal.Read
import proofs.«172499_j6210522710593_1_alg».proof.Proof.Dequant

noncomputable section

open scoped BigOperators

namespace Cert.ReferenceIdeal.RefValue

open Cert.ReferenceIdeal Cert.ReferenceIdeal.Read Idealize.ShloMosaic Idealize.ShloMosaic.ValueIdx Cert.Dequant

/-- The left operand of the product at output `(p, n)`, contraction index `k`, is row `p`, column `k`. -/
theorem lhs_index (p n k : Fin 4096) : lidx_main_v9 (ix2 p n) k = ix2 p k :=
  funext fun a => by match a with | ⟨0, _⟩ => rfl | ⟨1, _⟩ => rfl

/-- The flattened weight at `(n, k)`, followed back through the regrouping, is the stored integer at `(n, k)`. -/
theorem word_index (p n k : Fin 4096) : idx_main_v0 (idx_main_v8 (ridx_main_v9 (ix2 p n) k)) = ix2 n k :=
  funext fun a => Fin.ext (by
    have hn : n.val < 4096 := n.isLt
    have hk : k.val < 4096 := k.isLt
    match a with
    | ⟨0, _⟩ =>
      show (((n.val * 4096 + k.val) / 4096 * 32 + (n.val * 4096 + k.val) / 128 % 32) * 128 + (n.val * 4096 + k.val) % 128) / 4096 = n.val
      omega
    | ⟨1, _⟩ =>
      show (((n.val * 4096 + k.val) / 4096 * 32 + (n.val * 4096 + k.val) / 128 % 32) * 128 + (n.val * 4096 + k.val) % 128) % 4096 = k.val
      omega)

/-- The zero point the flattened weight at `(n, k)` was built from is that of row `n`, group `k / 128`. -/
theorem zero_index (p n k : Fin 4096) : idx_main_v2 (idx_main_v3 (idx_main_v8 (ridx_main_v9 (ix2 p n) k))) = ix2 n (grp k) :=
  funext fun a => Fin.ext (by
    have hn : n.val < 4096 := n.isLt
    have hk : k.val < 4096 := k.isLt
    match a with
    | ⟨0, _⟩ => show (n.val * 4096 + k.val) / 4096 = n.val; omega
    | ⟨1, _⟩ => show (n.val * 4096 + k.val) / 128 % 32 = k.val / 128; omega)

/-- The scale likewise. -/
theorem scale_index (p n k : Fin 4096) : idx_main_v5 (idx_main_v6 (idx_main_v8 (ridx_main_v9 (ix2 p n) k))) = ix2 n (grp k) :=
  funext fun a => Fin.ext (by
    have hn : n.val < 4096 := n.isLt
    have hk : k.val < 4096 := k.isLt
    match a with
    | ⟨0, _⟩ => show (n.val * 4096 + k.val) / 4096 = n.val; omega
    | ⟨1, _⟩ => show (n.val * 4096 + k.val) / 128 % 32 = k.val / 128; omega)

/-- The bias repeated over the rows reads, at `(p, n)`, the bias of feature `n`. -/
theorem bias_index (p n : Fin 4096) : idx_main_v10 (idx_main_v11 (ix2 p n)) = ix1 n :=
  funext fun a => by match a with | ⟨0, _⟩ => rfl

/-- The reference's result is the quantized linear layer of its arguments. -/
theorem result_eq (x0 : (⟨S4096x4096, .f32⟩ : BufTy).Contents (Elt Ideal)) (x1 : (⟨S4096x4096, .i32⟩ : BufTy).Contents (Elt Ideal))
    (x2 x3 : (⟨S4096x32, .f32⟩ : BufTy).Contents (Elt Ideal)) (x4 : (⟨S4096, .f32⟩ : BufTy).Contents (Elt Ideal)) :
    val_main_v12 (F := Ideal) x0 x1 x2 x3 x4 = linear x0 x1 x2 x3 x4 := by
  funext i
  obtain ⟨p, n, rfl⟩ : ∃ (p n : Fin 4096), i = ix2 p n := ⟨i 0, i 1, eq_ix2 i⟩
  rw [linear_ix2, val_main_v12_apply, val_main_v9_apply, val_main_v11_apply, val_main_v10_apply, bias_index]
  unfold out
  show (∑ k : Fin 4096, _) + _ = _
  refine congrArg (· + x4 (ix1 n)) (Finset.sum_congr rfl fun k _ => ?_)
  rw [val_main_v8_apply, val_main_v7_apply, val_main_v4_apply, val_main_v1_apply, val_main_v0_apply, val_main_v3_apply,
    val_main_v2_apply, val_main_v6_apply, val_main_v5_apply, lhs_index, word_index, zero_index, scale_index]
  rfl

end Cert.ReferenceIdeal.RefValue

end
-- ==== Proof.lean ====
/-
  A linear layer with group-wise quantized weights: the kernel and its reference are one function on the extended reals.

  Both programs compute `y p n = (Σ_k x p k · (int (q n k) − zero n (k / 128)) · scale n (k / 128)) + bias n`
  over `x : [4096, 4096]`, stored integers `q : [4096, 4096]`, and one scale and one zero point per group of 128
  consecutive input features (`Cert.Dequant.linear`). The kernel works tile by tile — 256 rows against 256 output
  features at each of 16 × 16 grid points, the weights dequantized inside the tile, the product taken after a change
  of float format that is the identity at the ideal values — and the reference dequantizes the whole matrix and takes
  one product. The sums are the same sums: every output element is computed inside one tile from whole rows, so no
  law beyond reading each program at an index is needed, and the finiteness of the inputs is never used.

  The frames of the two kernel programs and the kernel's value per grid point are the generated modules'; the
  reference's frame is its generated run with the result dropped; the idealization rewrote nothing.
-/
import proofs.«172499_j6210522710593_1_alg».proof.Defs
import proofs.«172499_j6210522710593_1_alg».proof.Proof.Gen.Kernel
import proofs.«172499_j6210522710593_1_alg».proof.Proof.Gen.Kernel.Frame
import proofs.«172499_j6210522710593_1_alg».proof.Proof.Gen.KernelIdeal
import proofs.«172499_j6210522710593_1_alg».proof.Proof.Gen.KernelIdeal.Frame
import proofs.«172499_j6210522710593_1_alg».proof.Proof.Gen.KernelIdeal.Value
import proofs.«172499_j6210522710593_1_alg».proof.Proof.Gen.ReferenceIdeal
import proofs.«172499_j6210522710593_1_alg».proof.Proof.Gen.ReferenceIdeal.Run
import proofs.«172499_j6210522710593_1_alg».proof.Proof.Gen.ReferenceIdeal.Read
import proofs.«172499_j6210522710593_1_alg».proof.Proof.Gen.Pre_finite_inputs
import proofs.«172499_j6210522710593_1_alg».proof.Proof.KernelArray
import proofs.«172499_j6210522710593_1_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run keeps its arguments: the generated run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the layer of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
